-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x64 .f32) (main_arg11 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 67
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S_, .i32⟩
  | .hbm, ⟨38, _⟩ => ⟨S_, .f32⟩
  | .hbm, ⟨39, _⟩ => ⟨S128, .f32⟩
  | .hbm, ⟨40, _⟩ => ⟨S1x128, .f32⟩
  | .hbm, ⟨41, _⟩ => ⟨S_, .f32⟩
  | .hbm, ⟨42, _⟩ => ⟨S1x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S_, .f32⟩
  | .hbm, ⟨56, _⟩ => ⟨S_, .i1⟩
  | .hbm, ⟨57, _⟩ => ⟨S_, .f32⟩
  | .hbm, ⟨58, _⟩ => ⟨S_, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x64, .f32⟩
  | .hbm, ⟨66, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_cst_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_cst_3 : Ref sig .tc := ⟨.hbm, 55, rfl⟩
abbrev main_call0_v13 : Ref sig .tc := ⟨.hbm, 56, rfl⟩
abbrev main_call0_cst_4 : Ref sig .tc := ⟨.hbm, 57, rfl⟩
abbrev main_call0_call0_v0 : Ref sig .tc := ⟨.hbm, 58, rfl⟩
abbrev main_call0_call0_v1 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem11_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x64.size a ≤ S128x64.size a
  hwx1_9 : ∀ i : grid1.Coords, EltTy.bits .f32 = 32 ∨ (Rect.block (s := S128x64) S128x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x64.size a ≤ S100000x64.size a
  hwx1_11 : ∀ i : grid1.Coords, EltTy.bits .f32 = 32 ∨ (Rect.block (s := S100000x64) S5000x64.size (cc1_transform_11 i) (hinb1_11 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S128x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v25) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v26) S5000x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S_, .i32⟩
  | .hbm, ⟨40, _⟩ => ⟨S_, .f32⟩
  | .hbm, ⟨41, _⟩ => ⟨S128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_cst_3 : Ref sig .tc := ⟨.hbm, 56, rfl⟩
abbrev main_call0_v12 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_4 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_call1_cst : Ref sig .tc := ⟨.hbm, 78, rfl⟩
abbrev main_call1_v0 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_call2_cst : Ref sig .tc := ⟨.hbm, 85, rfl⟩
abbrev main_call2_v0 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_call3_cst : Ref sig .tc := ⟨.hbm, 92, rfl⟩
abbrev main_call3_v0 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel's run with its result named. The program is a stretch of host operations, a first grid of row
  blocks, three more stretches of host operations, and a second grid of row blocks. Every weakly fair execution ends
  with each buffer holding what that chain leaves in it: the buffer's contents folded through the host stretches and the
  two grids' write-backs from the launch memory. Read at the result buffer and at the twelve arguments, this is the
  statement below; what the fold computes is read in the modules that build on it.
-/
import proofs.«153193_j45681272160997_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and every argument as launched. -/
theorem run_out : θ_run defs (onTc (τ := τ) (main (F := F))) ⟨m, fun _ => 0, ρ⟩ (fun r => ∀ c : Dev nD,
      r.2.mem ((c.tc : Thread nD τ).loc main_v26) = W6 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v26 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.KRun

end
-- ==== Proof.Spec.lean ====
/-
  The mathematics both programs compute, over the extended reals, as whole-array functions read index by index.

  A graph layer: every node's feature row is added to the sum of its neighbours' rows, sent through an affine map,
  normalised column by column with the batch mean and variance, and then through three more affine maps with a
  rectifier before each. Written here are the row-local pieces: an affine map of the rows of a matrix
  (`lin`), the rectifier (`relu`), the column-wise normalisation with given statistics (`bn`), and the chain of the
  last three layers (`tail`). Each of them computes row r of its result from row r of its argument alone, which is why
  a computation done block of rows by block of rows agrees with the computation done on the whole matrix.
-/
import Idealize.ShloMosaic.Lib.ValueIdx
import Idealize.ShloMosaic.PureOps.Ideal.Laws

noncomputable section

namespace Cert.Spec

open Idealize.ShloMosaic Idealize.ShloMosaic.ValueIdx

/-- A matrix of extended reals with M rows and N columns. -/
abbrev Mat (M N : Nat) := (⟨2, ![M, N]⟩ : Shape).Idx → EReal

/-- The single row of a one-row matrix, as a function of the column. -/
def row {N : Nat} (v : Mat 1 N) : Fin N → EReal := fun j => v (ix2 0 j)

/-- A vector as a function of its position. -/
def vec {N : Nat} (v : (⟨1, ![N]⟩ : Shape).Idx → EReal) : Fin N → EReal := fun j => v (ix1 j)

/-- The product of two matrices: entry (r, c) is the sum over k of h(r, k) · W(k, c). -/
def mm {M K N : Nat} (h : Mat M K) (W : Mat K N) : Mat M N :=
  fun i => ∑ k : Fin K, h (ix2 (i 0) k) * W (ix2 k (i 1))

/-- The affine map of the rows of `h`: entry (r, c) is the sum over k of h(r, k) · W(k, c), plus b(c). -/
def lin {M K N : Nat} (h : Mat M K) (W : Mat K N) (b : Fin N → EReal) : Mat M N :=
  fun i => mm h W i + b (i 1)

/-- The first layer: the rows of `x` plus the rows of `a`, through the affine map. -/
def lin1 {M : Nat} (x a : Mat M 128) (W : Mat 128 128) (b : Fin 128 → EReal) : Mat M 128 :=
  lin (fun i => x i + a i) W b

/-- The rectifier, entry by entry: the larger of the entry and zero (zero kept as the float word both programs write). -/
def relu {M N : Nat} (h : Mat M N) : Mat M N := fun i => max (h i) (Ideal.ofBits .f32 0x00000000#32)

/-- Column-wise normalisation with given column statistics: ((h − μ) · (σ² + ε)^(−1/2)) · γ + β, the grouping and the
    word for ε those of both programs. -/
def bn {M N : Nat} (h : Mat M N) (mu va g be : Fin N → EReal) : Mat M N :=
  fun i => (h i - mu (i 1)) * Ideal.rsqrt (va (i 1) + Ideal.ofBits .f32 0x3727C5AC#32) * g (i 1) + be (i 1)

/-- The last three layers after the normalisation. -/
def tail {M : Nat} (h : Mat M 128) (mu va g be : Fin 128 → EReal) (W2 : Mat 128 128) (b2 : Fin 128 → EReal)
    (Wm1 : Mat 128 128) (bm1 : Fin 128 → EReal) (Wm2 : Mat 128 64) (bm2 : Fin 64 → EReal) : Mat M 64 :=
  lin (relu (lin (relu (lin (relu (bn h mu va g be)) W2 b2)) Wm1 bm1)) Wm2 bm2

/-! ## Each piece reads only the row it writes -/

theorem lin_row {M M' K N : Nat} (h : Mat M K) (h' : Mat M' K) (W : Mat K N) (b : Fin N → EReal) (p : Fin M) (p' : Fin M')
    (e : ∀ k : Fin K, h (ix2 p k) = h' (ix2 p' k)) (q : Fin N) : lin h W b (ix2 p q) = lin h' W b (ix2 p' q) := by
  show (∑ k : Fin K, h (ix2 p k) * W (ix2 k q)) + b q = (∑ k : Fin K, h' (ix2 p' k) * W (ix2 k q)) + b q
  rw [Finset.sum_congr rfl fun k _ => by rw [e k]]

theorem relu_row {M M' N : Nat} (h : Mat M N) (h' : Mat M' N) (p : Fin M) (p' : Fin M')
    (e : ∀ k : Fin N, h (ix2 p k) = h' (ix2 p' k)) (q : Fin N) : relu h (ix2 p q) = relu h' (ix2 p' q) := by
  show max (h (ix2 p q)) _ = max (h' (ix2 p' q)) _
  rw [e q]

theorem bn_row {M M' N : Nat} (h : Mat M N) (h' : Mat M' N) (mu va g be : Fin N → EReal) (p : Fin M) (p' : Fin M')
    (e : ∀ k : Fin N, h (ix2 p k) = h' (ix2 p' k)) (q : Fin N) : bn h mu va g be (ix2 p q) = bn h' mu va g be (ix2 p' q) := by
  show (h (ix2 p q) - mu q) * Ideal.rsqrt (va q + _) * g q + be q = (h' (ix2 p' q) - mu q) * Ideal.rsqrt (va q + _) * g q + be q
  rw [e q]

theorem tail_row {M M' : Nat} (h : Mat M 128) (h' : Mat M' 128) (mu va g be : Fin 128 → EReal) (W2 : Mat 128 128) (b2 : Fin 128 → EReal)
    (Wm1 : Mat 128 128) (bm1 : Fin 128 → EReal) (Wm2 : Mat 128 64) (bm2 : Fin 64 → EReal) (p : Fin M) (p' : Fin M')
    (e : ∀ k : Fin 128, h (ix2 p k) = h' (ix2 p' k)) (q : Fin 64) :
    tail h mu va g be W2 b2 Wm1 bm1 Wm2 bm2 (ix2 p q) = tail h' mu va g be W2 b2 Wm1 bm1 Wm2 bm2 (ix2 p' q) := by
  unfold tail
  refine lin_row _ _ _ _ p p' (fun k3 => ?_) q
  refine relu_row _ _ p p' (fun k3 => ?_) k3
  refine lin_row _ _ _ _ p p' (fun k2 => ?_) k3
  refine relu_row _ _ p p' (fun k2 => ?_) k2
  refine lin_row _ _ _ _ p p' (fun k1 => ?_) k2
  refine relu_row _ _ p p' (fun k1 => ?_) k1
  exact bn_row _ _ _ _ _ _ p p' e k1

/-- The affine map does not see the order of a sum inside its argument: equal arguments, entry by entry, give equal results. -/
theorem lin_congr {M K N : Nat} (h h' : Mat M K) (W : Mat K N) (b b' : Fin N → EReal) (e : ∀ i, h i = h' i) (eb : ∀ j, b j = b' j) :
    lin h W b = lin h' W b' := by
  have : h = h' := funext e
  have : b = b' := funext eb
  subst_vars; rfl

end Cert.Spec

end
-- ==== Proof.Layout.lean ====
/-
  Re-laid vectors read at an index: a length-N vector seen as a one-row matrix, a one-row matrix repeated down M rows,
  and a scalar repeated everywhere. Each reads the operand at the obvious place.
-/
import Idealize.ShloMosaic.Lib.ValueIdx
import Idealize.ShloMosaic.Lib.Pipeline.Value

noncomputable section

namespace Cert.Layout

open Idealize.ShloMosaic Idealize.ShloMosaic.ValueIdx

variable {α : Type}

/-- A one-row matrix repeated down the rows (a vector broadcast) reads its one row. -/
theorem rows_of_row {M N : Nat} (hN : N ≠ 1) (v : (⟨2, ![1, N]⟩ : Shape).Idx → α) (h : (⟨2, ![1, N]⟩ : Shape).Broadcasts ⟨2, ![M, N]⟩)
    (p : Fin M) (q : Fin N) : broadcastTo ⟨2, ![M, N]⟩ v h (ix2 p q) = v (ix2 0 q) := by
  refine broadcastTo_apply v h (ix2 p q) (ix2 0 q) fun a => ?_
  match a with
  | ⟨0, _⟩ => rfl
  | ⟨1, _⟩ => exact (if_neg hN).symm

/-- The same repetition written with explicit axes (the host's form). -/
theorem rows_of_row_inDim {M N : Nat} (hN : N ≠ 1) (v : (⟨2, ![1, N]⟩ : Shape).Idx → α)
    (h : (⟨2, ![1, N]⟩ : Shape).BroadcastsInDim ⟨2, ![M, N]⟩ ![0, 1]) (p : Fin M) (q : Fin N) :
    broadcastInDim ⟨2, ![M, N]⟩ ![0, 1] h v (ix2 p q) = v (ix2 0 q) := by
  refine broadcastInDim_apply ![0, 1] h v (ix2 p q) (ix2 0 q) fun a => ?_
  match a with
  | ⟨0, _⟩ => rfl
  | ⟨1, _⟩ => exact (if_neg hN).symm

/-- A vector placed as the one row of a matrix (the host's form) reads the vector. -/
theorem row_of_vec_inDim {N : Nat} (hN : N ≠ 1) (v : (⟨1, ![N]⟩ : Shape).Idx → α)
    (h : (⟨1, ![N]⟩ : Shape).BroadcastsInDim ⟨2, ![1, N]⟩ ![1]) (q : Fin N) :
    broadcastInDim ⟨2, ![1, N]⟩ ![1] h v (ix2 0 q) = v (ix1 q) := by
  refine broadcastInDim_apply ![1] h v (ix2 0 q) (ix1 q) fun a => ?_
  match a with
  | ⟨0, _⟩ => exact (if_neg hN).symm

/-- A vector re-shaped into a one-row matrix reads the vector. -/
theorem row_of_vec_cast {N : Nat} (v : (⟨1, ![N]⟩ : Shape).Idx → α) (h : (⟨1, ![N]⟩ : Shape).ShapeCasts ⟨2, ![1, N]⟩) (q : Fin N) :
    shapeCast ⟨2, ![1, N]⟩ v h (ix2 0 q) = v (ix1 q) := by
  refine shapeCast_apply v h (ix2 0 q) (ix1 q) ?_
  rw [Shape.rowMajor_val_one, Shape.rowMajor_val_two]
  show q.val = 0 * N + q.val
  omega

/-- A scalar repeated over any shape reads the scalar. -/
theorem of_scalar_inDim {t : Shape} (v : (⟨0, ![]⟩ : Shape).Idx → α) (h : (⟨0, ![]⟩ : Shape).BroadcastsInDim t ![]) (j : t.Idx) :
    broadcastInDim t ![] h v j = v ix0 :=
  broadcastInDim_apply ![] h v j ix0 fun a => a.elim0

end Cert.Layout

end
-- ==== Proof.LibPlainDot.lean ====
/-
  A plain matrix product's contraction as a sum over one natural coordinate.

  For the dimension numbers of an M×K by K×N product with no batch axis (the left operand contracted on its columns,
  the right on its rows), the contraction index has one axis of extent K, the left operand is read at (row of the
  output, k) and the right at (k, column of the output). So the sum over the contraction index of the products is

      Σ over k < K of  l(r, k) · r(k, c)

  at output index (r, c): the form in which a kernel's block product and a whole-array product are compared.
-/
import Idealize.ShloMosaic.Lib.ValueIdx
import Idealize.ShloMosaic.PureOps.Ideal.Laws

noncomputable section

namespace Cert.LibPlainDot

open Idealize.ShloMosaic Idealize.ShloMosaic.ValueIdx

/-- The contraction of a plain M×K by K×N product at output index j, as a sum over the K positions. -/
theorem plain_contr_sum (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx j ((contrEquiv1 (DotDims.plain M K N) K hr hs).symm k) = ix2 (j 0) k := by
    funext a; apply Fin.ext
    match a with
    | ⟨0, _⟩ => rfl
    | ⟨1, _⟩ => exact ((DotDims.plain M K N).lhsIdx_val_of_single rfl j _).trans hk
  have er : (DotDims.plain M K N).rhsIdx j ((contrEquiv1 (DotDims.plain M K N) K hr hs).symm k) = ix2 k (j 1) := by
    funext a; apply Fin.ext
    match a with
    | ⟨0, _⟩ => exact ((DotDims.plain M K N).rhsIdx_val_of_single rfl j _).trans hk
    | ⟨1, _⟩ => rfl
  exact congrArg₂ (· * ·) (congrArg l el) (congrArg r er)

/-- A tpu.matmul into the zero accumulator with plain dimension numbers, read at an output index. -/
theorem matmul_zero_plain {φ₁ φ₂ : FTy} (M K N : Nat) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply _ prec l r j).trans (plain_contr_sum M K N l r j)

/-- The host's dot_general with plain dimension numbers, read at an output index. -/
theorem dotGeneral_plain {φ₁ φ₂ : FTy} (M K N : Nat) (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) :=
  (Ideal.dotGeneral_apply _ prec sched l r j).trans (plain_contr_sum M K N l r j)

end Cert.LibPlainDot

end
-- ==== Proof.PayK.lean ====
/-
  What one block of rows computes, in both grids of the idealized kernel, as the row-local pieces of the specification.

  The first body adds the two loaded blocks, multiplies by the weight matrix and adds the bias row: the affine map of the
  summed rows. The second body normalises its block with the loaded column statistics and sends it through the three
  affine maps with the rectifier before each; it is printed in two parts, cut between the second product and its bias.
  At the extended reals a change of float format is the identity, a product into a zero accumulator is the plain sum of
  products over the shared axis, a bias row repeated down the rows reads its one row, and the reciprocal square root is one
  function; so each payload IS the specification's expression, entry by entry.
-/
import proofs.«153193_j45681272160997_1_alg».proof.Proof.Gen.KernelIdeal.Skeleton
import proofs.«153193_j45681272160997_1_alg».proof.Proof.Spec
import proofs.«153193_j45681272160997_1_alg».proof.Proof.Layout
import proofs.«153193_j45681272160997_1_alg».proof.Proof.LibPlainDot
import Idealize.ShloMosaic.Lib.Pipeline.Value

noncomputable section

namespace Cert.KernelIdeal.Pay

open Cert.KernelIdeal Cert.KernelIdeal.Gen Idealize.ShloMosaic Idealize.ShloMosaic.ValueIdx Cert.Spec

/-- The printed dimension numbers are those of a plain product. -/
theorem dot128 : dot_S5000x128_S128x128_S5000x128_1_0_0_1_n_n = DotDims.plain 5000 128 128 := rfl
theorem dot64 : dot_S5000x128_S128x64_S5000x64_1_0_0_1_n_n = DotDims.plain 5000 128 64 := rfl

/-- A product of two matrices rounded to a narrower format on the way in, into the zero accumulator, is the matrix product. -/
theorem mm_of_matmul {M K N : Nat} (a : FVec Ideal ⟨2, ![M, K]⟩ .f32) (W : FVec Ideal ⟨2, ![K, N]⟩ .f32)
    (h1 : FTy.bf16.bits < FTy.f32.bits) (h2 : FTy.bf16.bits < FTy.f32.bits) :
    FloatOps.matmul (F := Ideal) (DotDims.plain M K N) none (truncf .bf16 a h1) (truncf .bf16 W h2) (constant ⟨2, ![M, N]⟩ .f32 0x00000000#32)
      = mm a W :=
  funext fun j => Cert.LibPlainDot.matmul_zero_plain M K N none _ _ j

/-- A one-row matrix repeated down the rows, as a function of the index: the row's entry in the index's column. -/
theorem rows_fn {M N : Nat} (hN : N ≠ 1) (b : (⟨2, ![1, N]⟩ : Shape).Idx → EReal) (hb : (⟨2, ![1, N]⟩ : Shape).Broadcasts ⟨2, ![M, N]⟩) :
    broadcastTo ⟨2, ![M, N]⟩ b hb = fun i => row b (i 1) := by
  funext j
  obtain ⟨p, q, rfl⟩ : ∃ (p : Fin M) (q : Fin N), j = ix2 p q := ⟨j 0, j 1, eq_ix2 j⟩
  exact Cert.Layout.rows_of_row hN b hb p q

/-- The first body's stored block. -/
theorem pay0 (x0 x1 : Vec Ideal S5000x128 .f32) (x2 : Vec Ideal S128x128 .f32) (x3 : Vec Ideal S1x128 .f32) :
    k0_pay1 x0 x1 x2 x3 = lin1 x0 x1 x2 (row x3) := by
  unfold k0_pay1
  simp only [matmul, dot128, shapeCast_self]
  rw [show (addf x0 x1 : FVec Ideal S5000x128 .f32) = (fun i => x0 i + x1 i : Mat 5000 128) from rfl]
  rw [mm_of_matmul, rows_fn (by decide)]
  rfl

/-- The second body's first part: up to the second product after the normalisation. -/
theorem pay2 (x0 : Vec Ideal S5000x128 .f32) (x1 x2 x3 x4 : Vec Ideal S1x128 .f32) (x5 : Vec Ideal S128x128 .f32) (x6 : Vec Ideal S1x128 .f32)
    (x7 : Vec Ideal S128x128 .f32) :
    k1_pay2 x0 x2 x1 x3 x4 x5 x6 x7 = mm (relu (lin (relu (bn x0 (row x1) (row x2) (row x3) (row x4))) x5 (row x6))) x7 := by
  unfold k1_pay2
  simp only [matmul, dot128, shapeCast_self, rows_fn (N := 128) (by decide)]
  rw [mm_of_matmul]
  refine congrArg (fun a => mm a x7) ?_
  refine (congrArg (fun a => maximumf (F := Ideal) (addf a _) _) (mm_of_matmul _ _ _ _)).trans ?_
  rfl

/-- The second body's stored block, from its first part. -/
theorem pay1 (v36 : FVec Ideal S5000x128 .f32) (x8 : Vec Ideal S1x128 .f32) (x9 : Vec Ideal S128x64 .f32) (x10 : Vec Ideal S1x64 .f32) :
    k1_pay1 v36 x8 x9 x10 = lin (relu (fun i => v36 i + row x8 (i 1))) x9 (row x10) := by
  unfold k1_pay1
  simp only [matmul, dot64, shapeCast_self, rows_fn (N := 128) (by decide), rows_fn (N := 64) (by decide)]
  rw [mm_of_matmul]
  rfl

/-- The second body's stored block is the chain of the last three layers on its block of rows. -/
theorem pay_tail (x0 : Vec Ideal S5000x128 .f32) (x1 x2 x3 x4 : Vec Ideal S1x128 .f32) (x5 : Vec Ideal S128x128 .f32) (x6 : Vec Ideal S1x128 .f32)
    (x7 : Vec Ideal S128x128 .f32) (x8 : Vec Ideal S1x128 .f32) (x9 : Vec Ideal S128x64 .f32) (x10 : Vec Ideal S1x64 .f32) :
    k1_pay1 (k1_pay2 x0 x2 x1 x3 x4 x5 x6 x7) x8 x9 x10
      = tail x0 (row x1) (row x2) (row x3) (row x4) x5 (row x6) x7 (row x8) x9 (row x10) := by
  rw [pay2, pay1]
  rfl

end Cert.KernelIdeal.Pay

end
-- ==== Proof.KReg0.lean ====
/-
  The first grid, as one function of the arrays it finds. Point t of its twenty points loads rows 5000·t … 5000·t + 4999 of
  the feature matrix and of the neighbour sums, the whole weight matrix and the bias row, and writes back the affine map of
  the summed rows. Since the affine map of a block of rows is the same block of rows of the affine map of the whole
  matrix, what point t writes back is block t of ONE whole-array function; the twenty blocks tile the 100000 rows, so
  after the grid the output array holds that function.
-/
import proofs.«153193_j45681272160997_1_alg».proof.Proof.Gen.KernelIdeal.Frame
import proofs.«153193_j45681272160997_1_alg».proof.Proof.PayK
import Idealize.ShloMosaic.Lib.Pipeline.Value

set_option maxRecDepth 16384

noncomputable section

namespace Cert.KernelIdeal.Reg0

open Cert.KernelIdeal Cert.KernelIdeal.Gen Idealize.ShloMosaic Idealize.ShloMosaic.TcCoe Idealize.ShloMosaic.ValueIdx Cert.Spec
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row-blocked windows at block row t, the resident ones at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of point t's block is row 5000·t + p of the array. -/
def gRow (t : Fin cfg0.N) (p : Fin 5000) : Fin 100000 := ⟨t.val * 5000 + p.val, by have := t.isLt; have := p.isLt; have : cfg0.N = 20 := N_0; omega⟩

theorem rd0 (c : Dev nD) (t : Fin cfg0.N) (p : Fin 5000) (k : Fin 128) :
    iblk0 V c 0 t (ix2 p k) = V c main_arg0 (ix2 (gRow t p) k) := by
  show V c main_arg0 (((cfg0.win 0).blk t).view.emb (ix2 p k)) = _
  refine congrArg _ (funext fun a => Fin.ext ?_)
  obtain ⟨e0, e1, -⟩ := idx_facts t
  match a with
  | ⟨0, _⟩ => show win0_0.index t (0 : Fin 2) * 5000 + 1 * p.val = t.val * 5000 + p.val; omega
  | ⟨1, _⟩ => show win0_0.index t (1 : Fin 2) * 128 + 1 * k.val = k.val; omega

theorem rd1 (c : Dev nD) (t : Fin cfg0.N) (p : Fin 5000) (k : Fin 128) :
    iblk0 V c 1 t (ix2 p k) = V c main_v13 (ix2 (gRow t p) k) := by
  show V c main_v13 (((cfg0.win 1).blk t).view.emb (ix2 p k)) = _
  refine congrArg _ (funext fun a => Fin.ext ?_)
  obtain ⟨-, -, e0, e1, -⟩ := idx_facts t
  match a with
  | ⟨0, _⟩ => show win0_1.index t (0 : Fin 2) * 5000 + 1 * p.val = t.val * 5000 + p.val; omega
  | ⟨1, _⟩ => show win0_1.index t (1 : Fin 2) * 128 + 1 * k.val = k.val; omega

theorem rd2 (c : Dev nD) (t : Fin cfg0.N) : (iblk0 V c 2 t : Mat 128 128) = V c main_arg2 := by
  funext y
  show V c main_arg2 (((cfg0.win 2).blk t).view.emb y) = V c main_arg2 y
  refine congrArg _ (funext fun a => Fin.ext ?_)
  obtain ⟨-, -, -, -, e0, e1, -⟩ := idx_facts t
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem rd3 (c : Dev nD) (t : Fin cfg0.N) : (iblk0 V c 3 t : Mat 1 128) = V c main_v14 := by
  funext y
  show V c main_v14 (((cfg0.win 3).blk t).view.emb y) = V c main_v14 y
  refine congrArg _ (funext fun a => Fin.ext ?_)
  obtain ⟨-, -, -, -, -, -, e0, e1, -⟩ := idx_facts t
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The output block's entry (p, q) sits at (5000·t + p, q) of the array. -/
theorem emb4 (t : Fin cfg0.N) (p : Fin 5000) (q : Fin 128) :
    ((cfg0.win 4).blk t).view.emb (ix2 p q) = ix2 (gRow t p) q := by
  funext a; apply Fin.ext
  obtain ⟨-, -, -, -, -, -, -, -, e0, e1⟩ := idx_facts t
  match a with
  | ⟨0, _⟩ => show win0_4.index t (0 : Fin 2) * 5000 + 1 * p.val = t.val * 5000 + p.val; omega
  | ⟨1, _⟩ => show win0_4.index t (1 : Fin 2) * 128 + 1 * q.val = q.val; omega

/-- WHAT POINT t WRITES BACK is block t of the first layer of the arrays the grid finds. -/
theorem flushed (c : Dev nD) (t : Fin cfg0.N) :
    (dat0 V c).flushed 4 t = ((cfg0.win 4).blk t).view.read (Elt Ideal)
      (lin1 (V c main_arg0) (V c main_v13) (V c main_arg2) (row (V c main_v14))) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S1x128) hz]
  refine (congrArg ((win0 4).cut (grid0.coords t)) (Pay.pay0 (iblk0 V c 0 t) (iblk0 V c 1 t) (iblk0 V c 2 t) (iblk0 V c 3 t))).trans ?_
  funext y
  obtain ⟨p, q, rfl⟩ : ∃ (p : Fin 5000) (q : Fin 128), y = ix2 p q := ⟨y 0, y 1, eq_ix2 y⟩
  show lin1 (iblk0 V c 0 t) (iblk0 V c 1 t) (iblk0 V c 2 t) (row (iblk0 V c 3 t)) (ix2 p q)
    = lin1 (V c main_arg0) (V c main_v13) (V c main_arg2) (row (V c main_v14)) (((cfg0.win 4).blk t).view.emb (ix2 p q))
  rw [emb4, rd2, rd3]
  unfold lin1
  exact lin_row _ _ _ _ p (gRow t p) (fun k => by rw [rd0, rd1]) q

/-- An index of the output array is in point t's block iff its row is among that block's rows. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v15).slice (win0_4.rect t)).set ↔ _
  rw [View.set_slice_whole, Rect.mem_set_unit]
  exact Iff.rfl

/-- The twenty blocks cover every row: row r is in block r / 5000. -/
theorem cover (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  refine ⟨⟨(i 0).val / 5000, by omega⟩, flush0_4 _, ?_⟩
  rw [mem_blk]
  obtain ⟨-, -, -, -, -, -, -, -, e0, e1⟩ := idx_facts ⟨(i 0).val / 5000, by omega⟩
  intro a
  match a with
  | ⟨0, _⟩ =>
    show win0_4.index _ (0 : Fin 2) * 5000 ≤ (i 0).val ∧ (i 0).val < win0_4.index _ (0 : Fin 2) * 5000 + 5000
    rw [e0]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e1]; omega

/-- THE OUTPUT ARRAY after the grid: the first layer of the arrays it found. -/
theorem final (c : Dev nD) :
    (dat0 V c).arrAt 4 cfg0.N = lin1 (V c main_arg0) (V c main_v13) (V c main_arg2) (row (V c main_v14)) :=
  (dat0 V c).arrAt_eq_of_cover 4 _ (fun t _ => flushed V c t) cover

end Cert.KernelIdeal.Reg0

end
-- ==== Proof.KReg1.lean ====
/-
  The second grid, as one function of the arrays it finds. Point t of its twenty points loads rows 5000·t … 5000·t + 4999 of
  the first layer's output, the two rows of column statistics, the scale and shift rows, and the three weight matrices with
  their bias rows (all of these whole), and writes back the chain of the last three layers on its block of rows. That
  chain computes each row from the same row of its argument, so what point t writes back is block t of the chain applied
  to the whole matrix; the twenty blocks tile the 100000 rows, so after the grid the result array holds the chain of the
  whole matrix.
-/
import proofs.«153193_j45681272160997_1_alg».proof.Proof.Gen.KernelIdeal.Frame
import proofs.«153193_j45681272160997_1_alg».proof.Proof.PayK
import Idealize.ShloMosaic.Lib.Pipeline.Value

set_option maxRecDepth 16384

noncomputable section

namespace Cert.KernelIdeal.Reg1

open Cert.KernelIdeal Cert.KernelIdeal.Gen Idealize.ShloMosaic Idealize.ShloMosaic.TcCoe Idealize.ShloMosaic.ValueIdx Cert.Spec
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the two row-blocked windows at block row t, the resident ones at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = t.val ∧ win1_11.index t (1 : Fin 2) = 0 :=
  (by decide +kernel : ∀ t : Fin grid1.N, _)

/-- Row p of point t's block is row 5000·t + p of the array. -/
def gRow (t : Fin cfg1.N) (p : Fin 5000) : Fin 100000 := ⟨t.val * 5000 + p.val, by have := t.isLt; have := p.isLt; have : cfg1.N = 20 := N_1; omega⟩

theorem rd0 (c : Dev nD) (t : Fin cfg1.N) (p : Fin 5000) (k : Fin 128) :
    iblk1 V c 0 t (ix2 p k) = V c main_v15 (ix2 (gRow t p) k) := by
  show V c main_v15 (((cfg1.win 0).blk t).view.emb (ix2 p k)) = _
  refine congrArg _ (funext fun a => Fin.ext ?_)
  obtain ⟨e0, e1, -⟩ := idx_facts t
  match a with
  | ⟨0, _⟩ => show win1_0.index t (0 : Fin 2) * 5000 + 1 * p.val = t.val * 5000 + p.val; omega
  | ⟨1, _⟩ => show win1_0.index t (1 : Fin 2) * 128 + 1 * k.val = k.val; omega

theorem rd1 (c : Dev nD) (t : Fin cfg1.N) : (iblk1 V c 1 t : Mat 1 128) = V c main_v19 := by
  funext y
  show V c main_v19 (((cfg1.win 1).blk t).view.emb y) = V c main_v19 y
  refine congrArg _ (funext fun a => Fin.ext ?_)
  obtain ⟨-, -, e0, e1, -⟩ := idx_facts t
  match a with
  | ⟨0, _⟩ => show win1_1.index t (0 : Fin 2) * 1 + 1 * (y 0).val = (y 0).val; omega
  | ⟨1, _⟩ => show win1_1.index t (1 : Fin 2) * 128 + 1 * (y 1).val = (y 1).val; omega

theorem rd2 (c : Dev nD) (t : Fin cfg1.N) : (iblk1 V c 2 t : Mat 1 128) = V c main_v20 := by
  funext y
  show V c main_v20 (((cfg1.win 2).blk t).view.emb y) = V c main_v20 y
  refine congrArg _ (funext fun a => Fin.ext ?_)
  obtain ⟨-, -, -, -, e0, e1, -⟩ := idx_facts t
  match a with
  | ⟨0, _⟩ => show win1_2.index t (0 : Fin 2) * 1 + 1 * (y 0).val = (y 0).val; omega
  | ⟨1, _⟩ => show win1_2.index t (1 : Fin 2) * 128 + 1 * (y 1).val = (y 1).val; omega

theorem rd3 (c : Dev nD) (t : Fin cfg1.N) : (iblk1 V c 3 t : Mat 1 128) = V c main_v21 := by
  funext y
  show V c main_v21 (((cfg1.win 3).blk t).view.emb y) = V c main_v21 y
  refine congrArg _ (funext fun a => Fin.ext ?_)
  obtain ⟨-, -, -, -, -, -, e0, e1, -⟩ := idx_facts t
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem rd4 (c : Dev nD) (t : Fin cfg1.N) : (iblk1 V c 4 t : Mat 1 128) = V c main_v22 := by
  funext y
  show V c main_v22 (((cfg1.win 4).blk t).view.emb y) = V c main_v22 y
  refine congrArg _ (funext fun a => Fin.ext ?_)
  obtain ⟨-, -, -, -, -, -, -, -, e0, e1, -⟩ := idx_facts t
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem rd5 (c : Dev nD) (t : Fin cfg1.N) : (iblk1 V c 5 t : Mat 128 128) = V c main_arg6 := by
  funext y
  show V c main_arg6 (((cfg1.win 5).blk t).view.emb y) = V c main_arg6 y
  refine congrArg _ (funext fun a => Fin.ext ?_)
  obtain ⟨-, -, -, -, -, -, -, -, -, -, e0, e1, -⟩ := idx_facts t
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem rd6 (c : Dev nD) (t : Fin cfg1.N) : (iblk1 V c 6 t : Mat 1 128) = V c main_v23 := by
  funext y
  show V c main_v23 (((cfg1.win 6).blk t).view.emb y) = V c main_v23 y
  refine congrArg _ (funext fun a => Fin.ext ?_)
  obtain ⟨-, -, -, -, -, -, -, -, -, -, -, -, e0, e1, -⟩ := idx_facts t
  match a with
  | ⟨0, _⟩ => show win1_6.index t (0 : Fin 2) * 1 + 1 * (y 0).val = (y 0).val; omega
  | ⟨1, _⟩ => show win1_6.index t (1 : Fin 2) * 128 + 1 * (y 1).val = (y 1).val; omega

theorem rd7 (c : Dev nD) (t : Fin cfg1.N) : (iblk1 V c 7 t : Mat 128 128) = V c main_arg8 := by
  funext y
  show V c main_arg8 (((cfg1.win 7).blk t).view.emb y) = V c main_arg8 y
  refine congrArg _ (funext fun a => Fin.ext ?_)
  obtain ⟨-, -, -, -, -, -, -, -, -, -, -, -, -, -, e0, e1, -⟩ := idx_facts t
  match a with
  | ⟨0, _⟩ => show win1_7.index t (0 : Fin 2) * 128 + 1 * (y 0).val = (y 0).val; omega
  | ⟨1, _⟩ => show win1_7.index t (1 : Fin 2) * 128 + 1 * (y 1).val = (y 1).val; omega

theorem rd8 (c : Dev nD) (t : Fin cfg1.N) : (iblk1 V c 8 t : Mat 1 128) = V c main_v24 := by
  funext y
  show V c main_v24 (((cfg1.win 8).blk t).view.emb y) = V c main_v24 y
  refine congrArg _ (funext fun a => Fin.ext ?_)
  obtain ⟨-, -, -, -, -, -, -, -, -, -, -, -, -, -, -, -, e0, e1, -⟩ := idx_facts t
  match a with
  | ⟨0, _⟩ => show win1_8.index t (0 : Fin 2) * 1 + 1 * (y 0).val = (y 0).val; omega
  | ⟨1, _⟩ => show win1_8.index t (1 : Fin 2) * 128 + 1 * (y 1).val = (y 1).val; omega

theorem rd9 (c : Dev nD) (t : Fin cfg1.N) : (iblk1 V c 9 t : Mat 128 64) = V c main_arg10 := by
  funext y
  show V c main_arg10 (((cfg1.win 9).blk t).view.emb y) = V c main_arg10 y
  refine congrArg _ (funext fun a => Fin.ext ?_)
  obtain ⟨-, -, -, -, -, -, -, -, -, -, -, -, -, -, -, -, -, -, e0, e1, -⟩ := idx_facts t
  match a with
  | ⟨0, _⟩ => show win1_9.index t (0 : Fin 2) * 128 + 1 * (y 0).val = (y 0).val; omega
  | ⟨1, _⟩ => show win1_9.index t (1 : Fin 2) * 64 + 1 * (y 1).val = (y 1).val; omega

theorem rd10 (c : Dev nD) (t : Fin cfg1.N) : (iblk1 V c 10 t : Mat 1 64) = V c main_v25 := by
  funext y
  show V c main_v25 (((cfg1.win 10).blk t).view.emb y) = V c main_v25 y
  refine congrArg _ (funext fun a => Fin.ext ?_)
  obtain ⟨-, -, -, -, -, -, -, -, -, -, -, -, -, -, -, -, -, -, -, -, e0, e1, -⟩ := idx_facts t
  match a with
  | ⟨0, _⟩ => show win1_10.index t (0 : Fin 2) * 1 + 1 * (y 0).val = (y 0).val; omega
  | ⟨1, _⟩ => show win1_10.index t (1 : Fin 2) * 64 + 1 * (y 1).val = (y 1).val; omega

/-- The output block's entry (p, q) sits at (5000·t + p, q) of the array. -/
theorem emb11 (t : Fin cfg1.N) (p : Fin 5000) (q : Fin 64) :
    ((cfg1.win 11).blk t).view.emb (ix2 p q) = ix2 (gRow t p) q := by
  funext a; apply Fin.ext
  obtain ⟨-, -, -, -, -, -, -, -, -, -, -, -, -, -, -, -, -, -, -, -, -, -, e0, e1⟩ := idx_facts t
  match a with
  | ⟨0, _⟩ => show win1_11.index t (0 : Fin 2) * 5000 + 1 * p.val = t.val * 5000 + p.val; omega
  | ⟨1, _⟩ => show win1_11.index t (1 : Fin 2) * 64 + 1 * q.val = q.val; omega

/-- The chain of the last three layers of the arrays the grid finds. -/
def G (c : Dev nD) : Mat 100000 64 :=
  tail (V c main_v15) (row (V c main_v19)) (row (V c main_v20)) (row (V c main_v21)) (row (V c main_v22)) (V c main_arg6)
    (row (V c main_v23)) (V c main_arg8) (row (V c main_v24)) (V c main_arg10) (row (V c main_v25))

/-- WHAT POINT t WRITES BACK is block t of that chain. -/
theorem flushed (c : Dev nD) (t : Fin cfg1.N) :
    (dat1 V c).flushed 11 t = ((cfg1.win 11).blk t).view.read (Elt Ideal) (G V c) := by
  show (cfg1.win 11).cut (grid1.coords t) ((dat1 V c).after 11 t) = _
  rw [after1_11]
  unfold out1_11
  rw [View.canon_unit_zero hz]
  simp only [View.ld_unit_zero (S := S5000x128) hz, View.ld_unit_zero (S := S128x128) hz, View.ld_unit_zero (S := S1x128) hz,
    View.ld_unit_zero (S := S128x64) hz, View.ld_unit_zero (S := S1x64) hz]
  refine (congrArg ((win1 11).cut (grid1.coords t)) (Pay.pay_tail (iblk1 V c 0 t) (iblk1 V c 1 t) (iblk1 V c 2 t) (iblk1 V c 3 t)
    (iblk1 V c 4 t) (iblk1 V c 5 t) (iblk1 V c 6 t) (iblk1 V c 7 t) (iblk1 V c 8 t) (iblk1 V c 9 t) (iblk1 V c 10 t))).trans ?_
  funext y
  obtain ⟨p, q, rfl⟩ : ∃ (p : Fin 5000) (q : Fin 64), y = ix2 p q := ⟨y 0, y 1, eq_ix2 y⟩
  show tail (iblk1 V c 0 t) (row (iblk1 V c 1 t)) (row (iblk1 V c 2 t)) (row (iblk1 V c 3 t)) (row (iblk1 V c 4 t)) (iblk1 V c 5 t)
      (row (iblk1 V c 6 t)) (iblk1 V c 7 t) (row (iblk1 V c 8 t)) (iblk1 V c 9 t) (row (iblk1 V c 10 t)) (ix2 p q)
    = G V c (((cfg1.win 11).blk t).view.emb (ix2 p q))
  rw [emb11, rd1, rd2, rd3, rd4, rd5, rd6, rd7, rd8, rd9, rd10]
  unfold G
  exact tail_row _ _ _ _ _ _ _ _ _ _ _ _ p (gRow t p) (fun k => rd0 V c t p k) q

/-- An index of the result array is in point t's block iff its row is among that block's rows. -/
theorem mem_blk (t : Fin cfg1.N) (i : S100000x64.Idx) :
    i ∈ ((cfg1.win 11).blk t).view.set ↔ ∀ a : Fin 2, win1_11.index t a * S5000x64.size a ≤ (i a).val ∧ (i a).val < win1_11.index t a * S5000x64.size a + S5000x64.size a := by
  show i ∈ ((View.whole main_v26).slice (win1_11.rect t)).set ↔ _
  rw [View.set_slice_whole, Rect.mem_set_unit]
  exact Iff.rfl

/-- The twenty blocks cover every row: row r is in block r / 5000. -/
theorem cover (i : S100000x64.Idx) : ∃ t : Fin cfg1.N, (cfg1.win 11).flush t = true ∧ i ∈ ((cfg1.win 11).blk t).view.set := by
  have hi0 : (i 0).val < 100000 := (i 0).isLt
  have hi1 : (i 1).val < 64 := (i 1).isLt
  have hN : cfg1.N = 20 := N_1
  refine ⟨⟨(i 0).val / 5000, by omega⟩, flush1_11 _, ?_⟩
  rw [mem_blk]
  obtain ⟨-, -, -, -, -, -, -, -, -, -, -, -, -, -, -, -, -, -, -, -, -, -, e0, e1⟩ := idx_facts ⟨(i 0).val / 5000, by omega⟩
  intro a
  match a with
  | ⟨0, _⟩ =>
    show win1_11.index _ (0 : Fin 2) * 5000 ≤ (i 0).val ∧ (i 0).val < win1_11.index _ (0 : Fin 2) * 5000 + 5000
    rw [e0]; show (i 0).val / 5000 * 5000 ≤ (i 0).val ∧ (i 0).val < (i 0).val / 5000 * 5000 + 5000; omega
  | ⟨1, _⟩ =>
    show win1_11.index _ (1 : Fin 2) * 64 ≤ (i 1).val ∧ (i 1).val < win1_11.index _ (1 : Fin 2) * 64 + 64
    rw [e1]; omega

/-- THE RESULT ARRAY after the grid: the chain of the last three layers of the arrays it found. -/
theorem final (c : Dev nD) : (dat1 V c).arrAt 11 cfg1.N = G V c :=
  (dat1 V c).arrAt_eq_of_cover 11 _ (fun t _ => flushed V c t) cover

end Cert.KernelIdeal.Reg1

end
-- ==== Proof.KHost.lean ====
/-
  The host operations of the idealized kernel's program, read as values. Before the first grid: the neighbour sums (the
  gather of every edge's source row, scatter-added at the edge's target) and the bias as a one-row matrix. Between the
  grids: the column means and the column variances of the first grid's output, each kept as a one-row matrix, and the
  scale, shift and bias vectors as one-row matrices. Each buffer the second grid reads is one of these terms of the launch
  contents and of the first grid's output array; nothing else writes them.
-/
import proofs.«153193_j45681272160997_1_alg».proof.Proof.Gen.KernelIdeal.Frame
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.StableHlo
open Idealize.SL.Sem

variable {F : FTy → Type} [FloatOps F]

/-- The neighbour sums: each edge's source row gathered (a negative source index wrapped by the row count first) and added
    into its target's row of a zero array. -/
def aggK (x : (⟨S100000x128, .f32⟩ : BufTy).Contents (Elt F)) (ei : (⟨S2x600000, .i32⟩ : BufTy).Contents (Elt F)) :
    (⟨S100000x128, .f32⟩ : BufTy).Contents (Elt F) :=
  Host.scatterAdd scatter_S100000x128_S600000x1_S600000x128_1_0_0_1 (broadcastInDim S100000x128 ![] bcast_S_S100000x128 (constant S_ .f32 0x00000000#32 : (⟨S_, .f32⟩ : BufTy).Contents (Elt F))) (broadcastInDim S600000x1 ![0] bcast_S600000_S600000x1_0 (shapeCast S600000 (extractStridedSlice S1x600000 ![1, 0] ei slices_S2x600000_S1x600000_1_0) shapeCasts_S1x600000_S600000)) (Host.gather gather_S100000x128_S600000x1_S600000x128_1_0_n_n_0_1_1128 x (broadcastInDim S600000x1 ![0] bcast_S600000_S600000x1_0 (select (cmpi .slt (shapeCast S600000 (extractStridedSlice S1x600000 ![0, 0] ei slices_S2x600000_S1x600000_0_0) shapeCasts_S1x600000_S600000) (broadcastInDim S600000 ![] bcast_S_S600000 (constantI S_ 32 0#32 : (⟨S_, .i32⟩ : BufTy).Contents (Elt F)))) (addi (shapeCast S600000 (extractStridedSlice S1x600000 ![0, 0] ei slices_S2x600000_S1x600000_0_0) shapeCasts_S1x600000_S600000) (broadcastInDim S600000 ![] bcast_S_S600000 (constantI S_ 32 100000#32 : (⟨S_, .i32⟩ : BufTy).Contents (Elt F)))) (shapeCast S600000 (extractStridedSlice S1x600000 ![0, 0] ei slices_S2x600000_S1x600000_0_0) shapeCasts_S1x600000_S600000))))

/-- The column means, kept as a one-row matrix: the sum over the rows, divided by their number. -/
def meanK (h : (⟨S100000x128, .f32⟩ : BufTy).Contents (Elt F)) : (⟨S1x128, .f32⟩ : BufTy).Contents (Elt F) :=
  Host.divf (broadcastInDim S1x128 ![1] bcast_S128_S1x128_1 (Host.reduceAdd h (constant S_ .f32 0x00000000#32 : (⟨S_, .f32⟩ : BufTy).Contents (Elt F)) reducesTo_S100000x128_S128_d0 h_S_)) (broadcastInDim S1x128 ![] bcast_S_S1x128 (constant S_ .f32 0x47C35000#32 : (⟨S_, .f32⟩ : BufTy).Contents (Elt F)))

/-- The column variances with correction zero, kept as a one-row matrix: the squared deviations from the column means summed
    over the rows and divided by the row count less the correction where that divisor is positive, the quiet NaN elsewhere. -/
def varK (h : (⟨S100000x128, .f32⟩ : BufTy).Contents (Elt F)) : (⟨S1x128, .f32⟩ : BufTy).Contents (Elt F) :=
  select (broadcastInDim S1x128 ![] bcast_S_S1x128 (cmpf .ogt (subf (constant S_ .f32 0x47C35000#32 : (⟨S_, .f32⟩ : BufTy).Contents (Elt F)) (sitofp .f32 (constantI S_ 32 0#32 : (⟨S_, .i32⟩ : BufTy).Contents (Elt F)))) (constant S_ .f32 0x00000000#32 : (⟨S_, .f32⟩ : BufTy).Contents (Elt F))))
    (Host.divf (broadcastInDim S1x128 ![1] bcast_S128_S1x128_1 (Host.reduceAdd (mulf (subf h (broadcastInDim S100000x128 ![0, 1] bcast_S1x128_S100000x128_0_1 (Host.divf (broadcastInDim S1x128 ![1] bcast_S128_S1x128_1 (Host.reduceAdd h (constant S_ .f32 0x00000000#32 : (⟨S_, .f32⟩ : BufTy).Contents (Elt F)) reducesTo_S100000x128_S128_d0 h_S_)) (broadcastInDim S1x128 ![] bcast_S_S1x128 (constant S_ .f32 0x47C35000#32 : (⟨S_, .f32⟩ : BufTy).Contents (Elt F)))))) (subf h (broadcastInDim S100000x128 ![0, 1] bcast_S1x128_S100000x128_0_1 (Host.divf (broadcastInDim S1x128 ![1] bcast_S128_S1x128_1 (Host.reduceAdd h (constant S_ .f32 0x00000000#32 : (⟨S_, .f32⟩ : BufTy).Contents (Elt F)) reducesTo_S100000x128_S128_d0 h_S_)) (broadcastInDim S1x128 ![] bcast_S_S1x128 (constant S_ .f32 0x47C35000#32 : (⟨S_, .f32⟩ : BufTy).Contents (Elt F))))))) (constant S_ .f32 0x00000000#32 : (⟨S_, .f32⟩ : BufTy).Contents (Elt F)) reducesTo_S100000x128_S128_d0 h_S_)) (broadcastInDim S1x128 ![] bcast_S_S1x128 (subf (constant S_ .f32 0x47C35000#32 : (⟨S_, .f32⟩ : BufTy).Contents (Elt F)) (sitofp .f32 (constantI S_ 32 0#32 : (⟨S_, .i32⟩ : BufTy).Contents (Elt F))))))
    (broadcastInDim S1x128 ![] bcast_S_S1x128 (constant S_ .f32 0x7FC00000#32 : (⟨S_, .f32⟩ : BufTy).Contents (Elt F)))

variable (m : (ℓ : Loc nD τ sig) → Buf (Elt F) ℓ) (ρ : Dev nD → PrngReg)

attribute [local irreducible] Host.reduceAdd Host.gather Host.scatterAdd

/-! ## What the first grid finds -/

theorem V1_arg0 (c : Dev nD) : V1 m ρ c main_arg0 = m ((c : Thread nD τ).loc main_arg0) := by
  show StableHlo.after hostOps0 (W0 m ρ c) (Proc.devRef .tc main_arg0) = _
  after_results

theorem V1_arg2 (c : Dev nD) : V1 m ρ c main_arg2 = m ((c : Thread nD τ).loc main_arg2) := by
  show StableHlo.after hostOps0 (W0 m ρ c) (Proc.devRef .tc main_arg2) = _
  after_results

theorem V1_v13 (c : Dev nD) : V1 m ρ c main_v13 = aggK (m ((c : Thread nD τ).loc main_arg0)) (m ((c : Thread nD τ).loc main_arg1)) := by
  show StableHlo.after hostOps0 (W0 m ρ c) (Proc.devRef .tc main_v13) = _
  after_results; rfl

theorem V1_v14 (c : Dev nD) : V1 m ρ c main_v14 = shapeCast S1x128 (m ((c : Thread nD τ).loc main_arg3)) shapeCasts_S128_S1x128 := by
  show StableHlo.after hostOps0 (W0 m ρ c) (Proc.devRef .tc main_v14) = _
  after_results; rfl

/-! ## The arguments between the grids -/

theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)

theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)

theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)

theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)

theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)

theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results)

/-! ## What the second grid finds -/

theorem V5_v15 (c : Dev nD) : V5 m ρ c main_v15 = (dat0 (V1 m ρ) c).arrAt 4 cfg0.N := by
  rw [← W2_arr m ρ c 4]
  show StableHlo.after hostOps1_2 (StableHlo.after hostOps1_1 (StableHlo.after hostOps1 (W2 m ρ c))) (Proc.devRef .tc main_v15) = _
  generalize W2 m ρ c = U
  after_results_simp

theorem V5_v19 (c : Dev nD) : V5 m ρ c main_v19 = meanK ((dat0 (V1 m ρ) c).arrAt 4 cfg0.N) := by
  rw [← W2_arr m ρ c 4]
  show StableHlo.after hostOps1_2 (StableHlo.after hostOps1_1 (StableHlo.after hostOps1 (W2 m ρ c))) (Proc.devRef .tc main_v19) = _
  generalize W2 m ρ c = U
  after_results_simp
  rfl

set_option maxHeartbeats 4000000 in
theorem V5_v20 (c : Dev nD) : V5 m ρ c main_v20 = varK ((dat0 (V1 m ρ) c).arrAt 4 cfg0.N) := by
  rw [← W2_arr m ρ c 4]
  show StableHlo.after hostOps1_2 (StableHlo.after hostOps1_1 (StableHlo.after hostOps1 (W2 m ρ c))) (Proc.devRef .tc main_v20) = _
  generalize W2 m ρ c = U
  after_results_simp
  rfl

theorem V5_v21 (c : Dev nD) : V5 m ρ c main_v21 = shapeCast S1x128 (m ((c : Thread nD τ).loc main_arg4)) shapeCasts_S128_S1x128 := by
  rw [← W2_arg4 m ρ c]
  show StableHlo.after hostOps1_2 (StableHlo.after hostOps1_1 (StableHlo.after hostOps1 (W2 m ρ c))) (Proc.devRef .tc main_v21) = _
  generalize W2 m ρ c = U
  after_results_simp
  rfl

theorem V5_v22 (c : Dev nD) : V5 m ρ c main_v22 = shapeCast S1x128 (m ((c : Thread nD τ).loc main_arg5)) shapeCasts_S128_S1x128 := by
  rw [← W2_arg5 m ρ c]
  show StableHlo.after hostOps1_2 (StableHlo.after hostOps1_1 (StableHlo.after hostOps1 (W2 m ρ c))) (Proc.devRef .tc main_v22) = _
  generalize W2 m ρ c = U
  after_results_simp
  rfl

theorem V5_v23 (c : Dev nD) : V5 m ρ c main_v23 = shapeCast S1x128 (m ((c : Thread nD τ).loc main_arg7)) shapeCasts_S128_S1x128 := by
  rw [← W2_arg7 m ρ c]
  show StableHlo.after hostOps1_2 (StableHlo.after hostOps1_1 (StableHlo.after hostOps1 (W2 m ρ c))) (Proc.devRef .tc main_v23) = _
  generalize W2 m ρ c = U
  after_results_simp
  rfl

theorem V5_v24 (c : Dev nD) : V5 m ρ c main_v24 = shapeCast S1x128 (m ((c : Thread nD τ).loc main_arg9)) shapeCasts_S128_S1x128 := by
  rw [← W2_arg9 m ρ c]
  show StableHlo.after hostOps1_2 (StableHlo.after hostOps1_1 (StableHlo.after hostOps1 (W2 m ρ c))) (Proc.devRef .tc main_v24) = _
  generalize W2 m ρ c = U
  after_results_simp
  rfl

theorem V5_v25 (c : Dev nD) : V5 m ρ c main_v25 = shapeCast S1x64 (m ((c : Thread nD τ).loc main_arg11)) shapeCasts_S64_S1x64 := by
  rw [← W2_arg11 m ρ c]
  show StableHlo.after hostOps1_2 (StableHlo.after hostOps1_1 (StableHlo.after hostOps1 (W2 m ρ c))) (Proc.devRef .tc main_v25) = _
  generalize W2 m ρ c = U
  after_results_simp
  rfl

theorem V5_arg6 (c : Dev nD) : V5 m ρ c main_arg6 = m ((c : Thread nD τ).loc main_arg6) := by
  rw [← W2_arg6 m ρ c]
  show StableHlo.after hostOps1_2 (StableHlo.after hostOps1_1 (StableHlo.after hostOps1 (W2 m ρ c))) (Proc.devRef .tc main_arg6) = _
  generalize W2 m ρ c = U
  after_results_simp

theorem V5_arg8 (c : Dev nD) : V5 m ρ c main_arg8 = m ((c : Thread nD τ).loc main_arg8) := by
  rw [← W2_arg8 m ρ c]
  show StableHlo.after hostOps1_2 (StableHlo.after hostOps1_1 (StableHlo.after hostOps1 (W2 m ρ c))) (Proc.devRef .tc main_arg8) = _
  generalize W2 m ρ c = U
  after_results_simp

theorem V5_arg10 (c : Dev nD) : V5 m ρ c main_arg10 = m ((c : Thread nD τ).loc main_arg10) := by
  rw [← W2_arg10 m ρ c]
  show StableHlo.after hostOps1_2 (StableHlo.after hostOps1_1 (StableHlo.after hostOps1 (W2 m ρ c))) (Proc.devRef .tc main_arg10) = _
  generalize W2 m ρ c = U
  after_results_simp

end Cert.KernelIdeal.KHost

end
-- ==== Proof.KValue.lean ====
/-
  The idealized kernel's result as one function of its arguments. The first grid leaves the affine map of the features plus
  the neighbour sums; the host takes that array's column means and variances; the second grid leaves the chain of the last
  three layers of that array with those statistics and the scale, shift and bias vectors read as one-row matrices.
-/
import proofs.«153193_j45681272160997_1_alg».proof.Proof.KRun
import proofs.«153193_j45681272160997_1_alg».proof.Proof.KReg0
import proofs.«153193_j45681272160997_1_alg».proof.Proof.KReg1
import proofs.«153193_j45681272160997_1_alg».proof.Proof.KHost

set_option maxRecDepth 16384

noncomputable section

namespace Cert.KernelIdeal.KValue

open Cert.KernelIdeal Cert.KernelIdeal.Gen Cert.KernelIdeal.KHost Idealize.ShloMosaic Idealize.ShloMosaic.TcCoe Idealize.ShloMosaic.ValueIdx Cert.Spec
open Idealize.SL.Sem

attribute [local irreducible] Host.reduceAdd Host.gather Host.scatterAdd

/-- The first grid's output: the affine map of the features plus the neighbour sums. -/
def H (x : FVec Ideal S100000x128 .f32) (ei : IVec S2x600000 32) (W1 : FVec Ideal S128x128 .f32) (b1 : FVec Ideal S128 .f32) : Mat 100000 128 :=
  lin1 x (aggK (F := Ideal) x ei) W1 (row (shapeCast S1x128 b1 shapeCasts_S128_S1x128))

/-- The result: the chain of the last three layers of the first grid's output, with its column statistics. -/
def kOut (x : FVec Ideal S100000x128 .f32) (ei : IVec S2x600000 32) (W1 : FVec Ideal S128x128 .f32) (b1 gamma beta : FVec Ideal S128 .f32)
    (W2 : FVec Ideal S128x128 .f32) (b2 : FVec Ideal S128 .f32) (Wm1 : FVec Ideal S128x128 .f32) (bm1 : FVec Ideal S128 .f32)
    (Wm2 : FVec Ideal S128x64 .f32) (bm2 : FVec Ideal S64 .f32) : Mat 100000 64 :=
  tail (H x ei W1 b1) (row (meanK (F := Ideal) (H x ei W1 b1))) (row (varK (F := Ideal) (H x ei W1 b1)))
    (row (shapeCast S1x128 gamma shapeCasts_S128_S1x128)) (row (shapeCast S1x128 beta shapeCasts_S128_S1x128)) W2
    (row (shapeCast S1x128 b2 shapeCasts_S128_S1x128)) Wm1 (row (shapeCast S1x128 bm1 shapeCasts_S128_S1x128)) Wm2
    (row (shapeCast S1x64 bm2 shapeCasts_S64_S1x64))

variable (m : (ℓ : Loc nD τ sig) → Buf (Elt Ideal) ℓ) (ρ : Dev nD → PrngReg)

/-- The first grid's output array after its run. -/
theorem arr0 (c : Dev nD) : (dat0 (V1 m ρ) c).arrAt 4 cfg0.N
    = H (m ((c : Thread nD τ).loc main_arg0)) (m ((c : Thread nD τ).loc main_arg1)) (m ((c : Thread nD τ).loc main_arg2)) (m ((c : Thread nD τ).loc main_arg3)) := by
  rw [Reg0.final, V1_arg0, V1_v13, V1_arg2, V1_v14]
  rfl

/-- The result buffer at the last boundary of the run. -/
theorem out_val (c : Dev nD) : W6 m ρ c (Proc.devRef .tc main_v26)
    = kOut (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)) := by
  refine (W6_arr m ρ c 11).trans ?_
  rw [Reg1.final]
  unfold Reg1.G
  rw [V5_v15, V5_v19, V5_v20, V5_v21, V5_v22, V5_arg6, V5_v23, V5_arg8, V5_v24, V5_arg10, V5_v25, arr0]
  rfl

/-- The idealized kernel's run, its result named. -/
theorem run : θ_run defs (onTc (τ := τ) (main (F := Ideal))) ⟨m, fun _ => 0, ρ⟩ (fun r => ∀ c : Dev nD,
      r.2.mem ((c.tc : Thread nD τ).loc main_v26)
        = kOut (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (out_val m ρ c), (h c).2⟩) (KRun.run_out m ρ)

end Cert.KernelIdeal.KValue

end
-- ==== Proof.RefRun.lean ====
/- The reference program's @main as one list of its host operations, the outlined functions' operations
   (the variance with its select, the three rectifiers) written at their call sites over each call's buffers,
   and its run: every weakly fair execution terminates with each TensorCore buffer at the operations' fold
   over the launch contents. -/
import proofs.«153193_j45681272160997_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 87 operations, in order: its own 56, the variance's 19 and its select's 3 after the scalar
    zero of the correction, and each rectifier's 3 (the zero, its broadcast, the maximum) where it is applied. -/
abbrev ops : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 100000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.binary main_v13 main_arg0 main_v14 (addf : (⟨S100000x128, .f32⟩ : BufTy).Contents (Elt F) → (⟨S100000x128, .f32⟩ : BufTy).Contents (Elt F) → (⟨S100000x128, .f32⟩ : BufTy).Contents (Elt F)),
    StableHlo.binary main_v14 main_arg2 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.binary main_v18 main_cst_1 main_v19 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v20 (broadcastInDim S128 ![] bcast_S_S128 : (⟨S_, .f32⟩ : BufTy).Contents (Elt F) → (⟨S128, .f32⟩ : BufTy).Contents (Elt F)),
    StableHlo.binary main_v19 main_v20 main_v21 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v18 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v18 : StableHlo.TRef sig ⟨S100000x128, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v21 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v24 main_v25 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v26 (broadcastInDim S128 ![] bcast_S_S128 : (⟨S_, .f32⟩ : BufTy).Contents (Elt F) → (⟨S128, .f32⟩ : BufTy).Contents (Elt F)),
    StableHlo.binary main_v22 main_v26 main_v27 (addf : (⟨S128, .f32⟩ : BufTy).Contents (Elt F) → (⟨S128, .f32⟩ : BufTy).Contents (Elt F) → (⟨S128, .f32⟩ : BufTy).Contents (Elt F)),
    StableHlo.unary main_v27 main_v28 (Host.rsqrt : (⟨S128, .f32⟩ : BufTy).Contents (Elt F) → (⟨S128, .f32⟩ : BufTy).Contents (Elt F)),
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v30 main_v31 (mulf : (⟨S100000x128, .f32⟩ : BufTy).Contents (Elt F) → (⟨S100000x128, .f32⟩ : BufTy).Contents (Elt F) → (⟨S100000x128, .f32⟩ : BufTy).Contents (Elt F)),
    StableHlo.unary main_arg4 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v33 main_v34 (mulf : (⟨S100000x128, .f32⟩ : BufTy).Contents (Elt F) → (⟨S100000x128, .f32⟩ : BufTy).Contents (Elt F) → (⟨S100000x128, .f32⟩ : BufTy).Contents (Elt F)),
    StableHlo.unary main_arg5 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v34 main_v36 main_v37 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v37 : StableHlo.TRef sig ⟨S100000x128, .f32⟩) main_call1.v0 main_call1.v1 maximumf,
    StableHlo.binary main_v38 main_arg6 main_v39 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v42 : StableHlo.TRef sig ⟨S100000x128, .f32⟩) main_call2.v0 main_call2.v1 maximumf,
    StableHlo.binary main_v43 main_arg8 main_v44 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v47 : StableHlo.TRef sig ⟨S100000x128, .f32⟩) main_call3.v0 main_call3.v1 maximumf,
    StableHlo.binary main_v48 main_arg10 main_v49 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg11 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S100000x64 ![0, 1] bcast_S1x64_S100000x64_0_1 : (⟨S1x64, .f32⟩ : BufTy).Contents (Elt F) → (⟨S100000x64, .f32⟩ : BufTy).Contents (Elt F)),
    StableHlo.binary main_v49 main_v51 main_v52 (addf : (⟨S100000x64, .f32⟩ : BufTy).Contents (Elt F) → (⟨S100000x64, .f32⟩ : BufTy).Contents (Elt F) → (⟨S100000x64, .f32⟩ : BufTy).Contents (Elt F)) ]

-- eighty-seven binds re-associated: the rewrite under the chain recurses once per statement
set_option maxRecDepth 4096 in
set_option maxHeartbeats 4000000 in
/-- @main is that straight line: the two windows and the functions' definitions unfolded at their calls, the
    records at their fields; both sides are one chain of steps once sequencing is reassociated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub ..⟩

/-- On every device, for any float values, from any memory with zero counters: every weakly fair execution of
    @main terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/- The reference program's result read back as a composition of named stages — the neighbour sum, the first
   layer, its column means and variances, the normalised and rectified first layer, the two further rectified
   layers and the output layer —, each the operations' composed term over the contents of the buffers it reads;
   and the run restated over them: the result buffer at `refOut` of the arguments' launch contents, the
   arguments unchanged. -/
import proofs.«153193_j45681272160997_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The neighbour sum: each edge's source row gathered (a negative source index wrapped by the row count first) and added into its target's row of a zero array. -/
def agg (x : (⟨S100000x128, .f32⟩ : BufTy).Contents (Elt F)) (ei : (⟨S2x600000, .i32⟩ : BufTy).Contents (Elt F)) :
    (⟨S100000x128, .f32⟩ : BufTy).Contents (Elt F) :=
  Host.scatterAdd scatter_S100000x128_S600000x1_S600000x128_1_0_0_1 (broadcastInDim S100000x128 ![] bcast_S_S100000x128 (constant S_ .f32 0x00000000#32 : (⟨S_, .f32⟩ : BufTy).Contents (Elt F))) (broadcastInDim S600000x1 ![0] bcast_S600000_S600000x1_0 (shapeCast S600000 (extractStridedSlice S1x600000 ![1, 0] ei slices_S2x600000_S1x600000_1_0) shapeCasts_S1x600000_S600000)) (Host.gather gather_S100000x128_S600000x1_S600000x128_1_0_n_n_0_1_1128 x (broadcastInDim S600000x1 ![0] bcast_S600000_S600000x1_0 (select (cmpi .slt (shapeCast S600000 (extractStridedSlice S1x600000 ![0, 0] ei slices_S2x600000_S1x600000_0_0) shapeCasts_S1x600000_S600000) (broadcastInDim S600000 ![] bcast_S_S600000 (constantI S_ 32 0#32 : (⟨S_, .i32⟩ : BufTy).Contents (Elt F)))) (addi (shapeCast S600000 (extractStridedSlice S1x600000 ![0, 0] ei slices_S2x600000_S1x600000_0_0) shapeCasts_S1x600000_S600000) (broadcastInDim S600000 ![] bcast_S_S600000 (constantI S_ 32 100000#32 : (⟨S_, .i32⟩ : BufTy).Contents (Elt F)))) (shapeCast S600000 (extractStridedSlice S1x600000 ![0, 0] ei slices_S2x600000_S1x600000_0_0) shapeCasts_S1x600000_S600000))))

/-- The first layer before normalisation: the neighbour sum plus the features, times `W1`, plus the bias on every row. -/
def h1 (x : (⟨S100000x128, .f32⟩ : BufTy).Contents (Elt F)) (ei : (⟨S2x600000, .i32⟩ : BufTy).Contents (Elt F)) (W1 : (⟨S128x128, .f32⟩ : BufTy).Contents (Elt F)) (b1 : (⟨S128, .f32⟩ : BufTy).Contents (Elt F)) :
    (⟨S100000x128, .f32⟩ : BufTy).Contents (Elt F) :=
  addf (Host.dotGeneral dot_S100000x128_S128x128_S100000x128_1_0_0_1_n_n none (addf (agg x ei) x) W1) (broadcastInDim S100000x128 ![0, 1] bcast_S1x128_S100000x128_0_1 (broadcastInDim S1x128 ![1] bcast_S128_S1x128_1 b1))

/-- The column means: the sum over the rows divided by their number. -/
def mean (h : (⟨S100000x128, .f32⟩ : BufTy).Contents (Elt F)) :
    (⟨S128, .f32⟩ : BufTy).Contents (Elt F) :=
  Host.divf (Host.reduceAdd h (constant S_ .f32 0x00000000#32 : (⟨S_, .f32⟩ : BufTy).Contents (Elt F)) reducesTo_S100000x128_S128_d0 h_S_) (broadcastInDim S128 ![] bcast_S_S128 (constant S_ .f32 0x47C35000#32 : (⟨S_, .f32⟩ : BufTy).Contents (Elt F)))

/-- The column variances with correction zero: the squared deviations from the column means (recomputed here) summed over the rows and divided by the row count less the correction, where that divisor is positive, and the quiet NaN elsewhere. -/
def var (h : (⟨S100000x128, .f32⟩ : BufTy).Contents (Elt F)) :
    (⟨S128, .f32⟩ : BufTy).Contents (Elt F) :=
  select (broadcastInDim S128 ![] bcast_S_S128 (cmpf .ogt (subf (constant S_ .f32 0x47C35000#32 : (⟨S_, .f32⟩ : BufTy).Contents (Elt F)) (sitofp .f32 (constantI S_ 32 0#32 : (⟨S_, .i32⟩ : BufTy).Contents (Elt F)))) (constant S_ .f32 0x00000000#32 : (⟨S_, .f32⟩ : BufTy).Contents (Elt F)))) (Host.divf (Host.reduceAdd (mulf (subf h (broadcastInDim S100000x128 ![0, 1] bcast_S1x128_S100000x128_0_1 (Host.divf (broadcastInDim S1x128 ![1] bcast_S128_S1x128_1 (Host.reduceAdd h (constant S_ .f32 0x00000000#32 : (⟨S_, .f32⟩ : BufTy).Contents (Elt F)) reducesTo_S100000x128_S128_d0 h_S_)) (broadcastInDim S1x128 ![] bcast_S_S1x128 (constant S_ .f32 0x47C35000#32 : (⟨S_, .f32⟩ : BufTy).Contents (Elt F)))))) (subf h (broadcastInDim S100000x128 ![0, 1] bcast_S1x128_S100000x128_0_1 (Host.divf (broadcastInDim S1x128 ![1] bcast_S128_S1x128_1 (Host.reduceAdd h (constant S_ .f32 0x00000000#32 : (⟨S_, .f32⟩ : BufTy).Contents (Elt F)) reducesTo_S100000x128_S128_d0 h_S_)) (broadcastInDim S1x128 ![] bcast_S_S1x128 (constant S_ .f32 0x47C35000#32 : (⟨S_, .f32⟩ : BufTy).Contents (Elt F))))))) (constant S_ .f32 0x00000000#32 : (⟨S_, .f32⟩ : BufTy).Contents (Elt F)) reducesTo_S100000x128_S128_d0 h_S_) (broadcastInDim S128 ![] bcast_S_S128 (subf (constant S_ .f32 0x47C35000#32 : (⟨S_, .f32⟩ : BufTy).Contents (Elt F)) (sitofp .f32 (constantI S_ 32 0#32 : (⟨S_, .i32⟩ : BufTy).Contents (Elt F)))))) (broadcastInDim S128 ![] bcast_S_S128 (constant S_ .f32 0x7FC00000#32 : (⟨S_, .f32⟩ : BufTy).Contents (Elt F)))

/-- The normalised first layer, rectified: the deviation from the column mean times the reciprocal root of the variance plus epsilon, scaled by `gamma`, shifted by `beta`, and the maximum with zero. -/
def act1 (h : (⟨S100000x128, .f32⟩ : BufTy).Contents (Elt F)) (gamma : (⟨S128, .f32⟩ : BufTy).Contents (Elt F)) (beta : (⟨S128, .f32⟩ : BufTy).Contents (Elt F)) :
    (⟨S100000x128, .f32⟩ : BufTy).Contents (Elt F) :=
  maximumf (addf (mulf (mulf (subf h (broadcastInDim S100000x128 ![0, 1] bcast_S1x128_S100000x128_0_1 (broadcastInDim S1x128 ![1] bcast_S128_S1x128_1 (mean h)))) (broadcastInDim S100000x128 ![0, 1] bcast_S1x128_S100000x128_0_1 (broadcastInDim S1x128 ![1] bcast_S128_S1x128_1 (Host.rsqrt (addf (var h) (broadcastInDim S128 ![] bcast_S_S128 (constant S_ .f32 0x3727C5AC#32 : (⟨S_, .f32⟩ : BufTy).Contents (Elt F)))))))) (broadcastInDim S100000x128 ![0, 1] bcast_S1x128_S100000x128_0_1 (broadcastInDim S1x128 ![1] bcast_S128_S1x128_1 gamma))) (broadcastInDim S100000x128 ![0, 1] bcast_S1x128_S100000x128_0_1 (broadcastInDim S1x128 ![1] bcast_S128_S1x128_1 beta))) (broadcastInDim S100000x128 ![] bcast_S_S100000x128 (constant S_ .f32 0x00000000#32 : (⟨S_, .f32⟩ : BufTy).Contents (Elt F)))

/-- The second layer: `a` times `W2` plus the bias, rectified. -/
def act2 (a : (⟨S100000x128, .f32⟩ : BufTy).Contents (Elt F)) (W2 : (⟨S128x128, .f32⟩ : BufTy).Contents (Elt F)) (b2 : (⟨S128, .f32⟩ : BufTy).Contents (Elt F)) :
    (⟨S100000x128, .f32⟩ : BufTy).Contents (Elt F) :=
  maximumf (addf (Host.dotGeneral dot_S100000x128_S128x128_S100000x128_1_0_0_1_n_n none a W2) (broadcastInDim S100000x128 ![0, 1] bcast_S1x128_S100000x128_0_1 (broadcastInDim S1x128 ![1] bcast_S128_S1x128_1 b2))) (broadcastInDim S100000x128 ![] bcast_S_S100000x128 (constant S_ .f32 0x00000000#32 : (⟨S_, .f32⟩ : BufTy).Contents (Elt F)))

/-- The third layer: `a` times `Wm1` plus the bias, rectified. -/
def act3 (a : (⟨S100000x128, .f32⟩ : BufTy).Contents (Elt F)) (Wm1 : (⟨S128x128, .f32⟩ : BufTy).Contents (Elt F)) (bm1 : (⟨S128, .f32⟩ : BufTy).Contents (Elt F)) :
    (⟨S100000x128, .f32⟩ : BufTy).Contents (Elt F) :=
  maximumf (addf (Host.dotGeneral dot_S100000x128_S128x128_S100000x128_1_0_0_1_n_n none a Wm1) (broadcastInDim S100000x128 ![0, 1] bcast_S1x128_S100000x128_0_1 (broadcastInDim S1x128 ![1] bcast_S128_S1x128_1 bm1))) (broadcastInDim S100000x128 ![] bcast_S_S100000x128 (constant S_ .f32 0x00000000#32 : (⟨S_, .f32⟩ : BufTy).Contents (Elt F)))

/-- The output layer: `a` times `Wm2` plus the bias. -/
def outv (a : (⟨S100000x128, .f32⟩ : BufTy).Contents (Elt F)) (Wm2 : (⟨S128x64, .f32⟩ : BufTy).Contents (Elt F)) (bm2 : (⟨S64, .f32⟩ : BufTy).Contents (Elt F)) :
    (⟨S100000x64, .f32⟩ : BufTy).Contents (Elt F) :=
  addf (Host.dotGeneral dot_S100000x128_S128x64_S100000x64_1_0_0_1_n_n none a Wm2) (broadcastInDim S100000x64 ![0, 1] bcast_S1x64_S100000x64_0_1 (broadcastInDim S1x64 ![1] bcast_S64_S1x64_1 bm2))

/-- The whole reference: the four layers in order. -/
def refOut (x : (⟨S100000x128, .f32⟩ : BufTy).Contents (Elt F))
    (ei : (⟨S2x600000, .i32⟩ : BufTy).Contents (Elt F))
    (W1 : (⟨S128x128, .f32⟩ : BufTy).Contents (Elt F))
    (b1 : (⟨S128, .f32⟩ : BufTy).Contents (Elt F))
    (gamma : (⟨S128, .f32⟩ : BufTy).Contents (Elt F))
    (beta : (⟨S128, .f32⟩ : BufTy).Contents (Elt F))
    (W2 : (⟨S128x128, .f32⟩ : BufTy).Contents (Elt F))
    (b2 : (⟨S128, .f32⟩ : BufTy).Contents (Elt F))
    (Wm1 : (⟨S128x128, .f32⟩ : BufTy).Contents (Elt F))
    (bm1 : (⟨S128, .f32⟩ : BufTy).Contents (Elt F))
    (Wm2 : (⟨S128x64, .f32⟩ : BufTy).Contents (Elt F))
    (bm2 : (⟨S64, .f32⟩ : BufTy).Contents (Elt F)) :
    (⟨S100000x64, .f32⟩ : BufTy).Contents (Elt F) :=
  outv (act3 (act2 (act1 (h1 x ei W1 b1) gamma beta) W2 b2) Wm1 bm1) Wm2 bm2

-- the sums, the gather and the scatter-add stay folded (the matrix products are irreducible already): the equation
-- never looks inside them, and their bodies are folds over a hundred thousand rows
attribute [local irreducible] Host.reduceAdd Host.gather Host.scatterAdd in
set_option maxRecDepth 16384 in
set_option maxHeartbeats 4000000 in
/-- The fold at the result buffer is `refOut` of the arguments' contents: each operation's result at its own
    buffer is its function's value and at any other buffer what was there; what is left is the stages unfolded,
    the typed references' casts the identity at these literal references. -/
theorem out_eq (V : Valuation τ sig (Elt F)) :
    after ops V (main_v52 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

theorem arg11_eq (V : Valuation τ sig (Elt F)) :
    after ops V (main_arg11 : DevRef τ sig) = V (main_arg11 : DevRef τ sig) := by
  after_results_simp

/-- On every device, for any float values, from any memory with zero counters: every weakly fair execution of
    @main terminates with the result buffer at `refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v52).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_main m ρ)

end Cert.ReferenceIdeal.RefRun

end
-- ==== Proof.RefSpec.lean ====
/-
  The reference's stages, at the extended reals, as the row-local pieces of the specification. The host's matrix product
  is the plain sum of products over the shared axis; a bias vector placed as a one-row matrix and repeated down the rows
  reads the vector's entry in the index's column; a scalar repeated everywhere reads the scalar; the host's reciprocal
  square root is the one function. So the first stage is the affine map of the neighbour sums plus the features, and the
  other stages are the normalisation, the rectifier and three affine maps: the chain `tail` of the first stage's output
  with its own column means and variances.
-/
import proofs.«153193_j45681272160997_1_alg».proof.Proof.RefTerm
import proofs.«153193_j45681272160997_1_alg».proof.Proof.Spec
import proofs.«153193_j45681272160997_1_alg».proof.Proof.Layout
import proofs.«153193_j45681272160997_1_alg».proof.Proof.LibPlainDot

set_option maxRecDepth 16384

noncomputable section

namespace Cert.ReferenceIdeal.RefSpec

open Cert.ReferenceIdeal Cert.ReferenceIdeal.Gen Cert.ReferenceIdeal.RefRun Idealize.ShloMosaic Idealize.ShloMosaic.ValueIdx Cert.Spec

attribute [local irreducible] Host.reduceAdd Host.gather Host.scatterAdd

/-- The printed dimension numbers are those of a plain product. -/
theorem dot128 : dot_S100000x128_S128x128_S100000x128_1_0_0_1_n_n = DotDims.plain 100000 128 128 := rfl
theorem dot64 : dot_S100000x128_S128x64_S100000x64_1_0_0_1_n_n = DotDims.plain 100000 128 64 := rfl

/-- The host's product of two matrices is the matrix product. -/
theorem mm_of_dot {M K N : Nat} (a : FVec Ideal ⟨2, ![M, K]⟩ .f32) (W : FVec Ideal ⟨2, ![K, N]⟩ .f32) :
    FloatOps.dotGeneral (F := Ideal) (DotDims.plain M K N) none .single a W = mm a W :=
  funext fun j => Cert.LibPlainDot.dotGeneral_plain M K N none .single a W j

/-- A vector placed as a one-row matrix and repeated down the rows reads the vector's entry in the index's column. -/
theorem bias_fn {M N : Nat} (hN : N ≠ 1) (b : (⟨1, ![N]⟩ : Shape).Idx → EReal)
    (h1 : (⟨1, ![N]⟩ : Shape).BroadcastsInDim ⟨2, ![1, N]⟩ ![1]) (h2 : (⟨2, ![1, N]⟩ : Shape).BroadcastsInDim ⟨2, ![M, N]⟩ ![0, 1]) :
    broadcastInDim ⟨2, ![M, N]⟩ ![0, 1] h2 (broadcastInDim ⟨2, ![1, N]⟩ ![1] h1 b) = fun i => vec b (i 1) := by
  funext j
  obtain ⟨p, q, rfl⟩ : ∃ (p : Fin M) (q : Fin N), j = ix2 p q := ⟨j 0, j 1, eq_ix2 j⟩
  rw [Cert.Layout.rows_of_row_inDim hN, Cert.Layout.row_of_vec_inDim hN]
  rfl

/-- A scalar repeated over a shape reads the scalar. -/
theorem scalar_fn {α : Type} {t : Shape} (v : (⟨0, ![]⟩ : Shape).Idx → α) (h : (⟨0, ![]⟩ : Shape).BroadcastsInDim t ![]) :
    broadcastInDim t ![] h v = fun _ => v ix0 :=
  funext fun j => Cert.Layout.of_scalar_inDim v h j

theorem h1_eq (x : FVec Ideal S100000x128 .f32) (ei : IVec S2x600000 32) (W1 : FVec Ideal S128x128 .f32) (b1 : FVec Ideal S128 .f32) :
    h1 (F := Ideal) x ei W1 b1 = lin (fun i => agg (F := Ideal) x ei i + x i) W1 (vec b1) := by
  unfold h1
  simp only [Host.dotGeneral, dot128, bias_fn (N := 128) (by decide)]
  rw [show (addf (agg (F := Ideal) x ei) x : FVec Ideal S100000x128 .f32) = (fun i => agg (F := Ideal) x ei i + x i : Mat 100000 128) from rfl]
  rw [mm_of_dot]
  rfl

theorem act1_eq (h : FVec Ideal S100000x128 .f32) (gamma beta : FVec Ideal S128 .f32) :
    act1 (F := Ideal) h gamma beta = relu (bn h (vec (mean (F := Ideal) h)) (vec (var (F := Ideal) h)) (vec gamma) (vec beta)) := by
  unfold act1
  simp only [bias_fn (N := 128) (by decide), scalar_fn]
  rfl

theorem act2_eq (a : FVec Ideal S100000x128 .f32) (W2 : FVec Ideal S128x128 .f32) (b2 : FVec Ideal S128 .f32) :
    act2 (F := Ideal) a W2 b2 = relu (lin a W2 (vec b2)) := by
  unfold act2
  simp only [Host.dotGeneral, dot128, bias_fn (N := 128) (by decide), scalar_fn]
  rw [mm_of_dot]
  rfl

theorem act3_eq (a : FVec Ideal S100000x128 .f32) (Wm1 : FVec Ideal S128x128 .f32) (bm1 : FVec Ideal S128 .f32) :
    act3 (F := Ideal) a Wm1 bm1 = relu (lin a Wm1 (vec bm1)) := by
  unfold act3
  simp only [Host.dotGeneral, dot128, bias_fn (N := 128) (by decide), scalar_fn]
  rw [mm_of_dot]
  rfl

theorem outv_eq (a : FVec Ideal S100000x128 .f32) (Wm2 : FVec Ideal S128x64 .f32) (bm2 : FVec Ideal S64 .f32) :
    outv (F := Ideal) a Wm2 bm2 = lin a Wm2 (vec bm2) := by
  unfold outv
  simp only [Host.dotGeneral, dot64, bias_fn (N := 64) (by decide)]
  rw [mm_of_dot]
  rfl

/-- The whole reference: the chain of the last three layers of the first stage's output, with its own column statistics. -/
theorem refOut_eq (x : FVec Ideal S100000x128 .f32) (ei : IVec S2x600000 32) (W1 : FVec Ideal S128x128 .f32) (b1 gamma beta : FVec Ideal S128 .f32)
    (W2 : FVec Ideal S128x128 .f32) (b2 : FVec Ideal S128 .f32) (Wm1 : FVec Ideal S128x128 .f32) (bm1 : FVec Ideal S128 .f32)
    (Wm2 : FVec Ideal S128x64 .f32) (bm2 : FVec Ideal S64 .f32) :
    refOut (F := Ideal) x ei W1 b1 gamma beta W2 b2 Wm1 bm1 Wm2 bm2
      = tail (h1 (F := Ideal) x ei W1 b1) (vec (mean (F := Ideal) (h1 (F := Ideal) x ei W1 b1))) (vec (var (F := Ideal) (h1 (F := Ideal) x ei W1 b1)))
          (vec gamma) (vec beta) W2 (vec b2) Wm1 (vec bm1) Wm2 (vec bm2) := by
  unfold refOut tail
  rw [outv_eq, act3_eq, act2_eq, act1_eq]

end Cert.ReferenceIdeal.RefSpec

end
-- ==== Proof.Bridge.lean ====
/-
  The two results are one function of the arguments. Both are the chain of the last three layers applied to a first-layer
  matrix with that matrix's column statistics, and they differ only in spelling: the kernel adds the features to the
  neighbour sums, the reference the neighbour sums to the features (addition of extended reals commutes, infinities
  included); the kernel keeps the bias, scale and shift vectors and the column statistics as one-row matrices, the reference
  as vectors (the same entries); the neighbour sums, the column sums and the sums of squared deviations are the same host
  operations on both sides and are never opened.
-/
import proofs.«153193_j45681272160997_1_alg».proof.Proof.KValue
import proofs.«153193_j45681272160997_1_alg».proof.Proof.RefSpec

set_option maxRecDepth 16384

noncomputable section

namespace Cert.Bridge

open Idealize.ShloMosaic Idealize.ShloMosaic.ValueIdx Cert.Spec
open Cert.KernelIdeal.KValue Cert.KernelIdeal.KHost Cert.ReferenceIdeal.RefRun Cert.ReferenceIdeal.RefSpec

attribute [local irreducible] Host.reduceAdd Host.gather Host.scatterAdd

abbrev A128 := FVec Ideal (⟨2, ![100000, 128]⟩ : Shape) .f32
abbrev V128 := FVec Ideal (⟨1, ![128]⟩ : Shape) .f32

/-- A vector re-shaped into a one-row matrix has the vector's entries as its row. -/
theorem row_cast {N : Nat} (v : (⟨1, ![N]⟩ : Shape).Idx → EReal) (h : (⟨1, ![N]⟩ : Shape).ShapeCasts ⟨2, ![1, N]⟩) :
    row (shapeCast ⟨2, ![1, N]⟩ v h) = vec v :=
  funext fun q => Cert.Layout.row_of_vec_cast v h q

/-- A vector placed as a one-row matrix reads the vector, as a function of the index. -/
theorem b1row {N : Nat} (hN : N ≠ 1) (v : (⟨1, ![N]⟩ : Shape).Idx → EReal) (h : (⟨1, ![N]⟩ : Shape).BroadcastsInDim ⟨2, ![1, N]⟩ ![1]) :
    broadcastInDim ⟨2, ![1, N]⟩ ![1] h v = fun i => v (ix1 (i 1)) := by
  funext j
  obtain ⟨p, q, rfl⟩ : ∃ (p : Fin 1) (q : Fin N), j = ix2 p q := ⟨j 0, j 1, eq_ix2 j⟩
  obtain rfl : p = 0 := Subsingleton.elim _ _
  exact Cert.Layout.row_of_vec_inDim hN v h q

/-- The neighbour sums are the same host operations in both programs. -/
theorem agg_eq (x : A128) (ei : IVec (⟨2, ![2, 600000]⟩ : Shape) 32) : aggK (F := Ideal) x ei = agg (F := Ideal) x ei := rfl

/-- The column means: the kernel's one-row matrix holds the reference's vector. -/
theorem mean_row (h : A128) : row (meanK (F := Ideal) h) = vec (mean (F := Ideal) h) := by
  funext q
  unfold meanK mean row vec
  simp only [b1row (N := 128) (by decide), scalar_fn]
  rfl

/-- The column variances: the kernel's one-row matrix holds the reference's vector. -/
theorem var_row (h : A128) : row (varK (F := Ideal) h) = vec (var (F := Ideal) h) := by
  funext q
  unfold varK var row vec
  simp only [b1row (N := 128) (by decide), scalar_fn]
  rfl

/-- The first layer: features plus neighbour sums, or neighbour sums plus features. -/
theorem H_eq (x : A128) (ei : IVec (⟨2, ![2, 600000]⟩ : Shape) 32) (W1 : FVec Ideal (⟨2, ![128, 128]⟩ : Shape) .f32) (b1 : V128) :
    H x ei W1 b1 = h1 (F := Ideal) x ei W1 b1 := by
  rw [h1_eq]
  unfold H lin1
  refine lin_congr _ _ _ _ _ (fun i => ?_) (fun j => ?_)
  · show x i + aggK (F := Ideal) x ei i = agg (F := Ideal) x ei i + x i
    rw [agg_eq, add_comm]
  · exact congrFun (row_cast b1 _) j

/-- THE TWO RESULTS AGREE. -/
theorem kOut_eq_refOut (x : A128) (ei : IVec (⟨2, ![2, 600000]⟩ : Shape) 32) (W1 : FVec Ideal (⟨2, ![128, 128]⟩ : Shape) .f32) (b1 gamma beta : V128)
    (W2 : FVec Ideal (⟨2, ![128, 128]⟩ : Shape) .f32) (b2 : V128) (Wm1 : FVec Ideal (⟨2, ![128, 128]⟩ : Shape) .f32) (bm1 : V128)
    (Wm2 : FVec Ideal (⟨2, ![128, 64]⟩ : Shape) .f32) (bm2 : FVec Ideal (⟨1, ![64]⟩ : Shape) .f32) :
    kOut x ei W1 b1 gamma beta W2 b2 Wm1 bm1 Wm2 bm2 = refOut (F := Ideal) x ei W1 b1 gamma beta W2 b2 Wm1 bm1 Wm2 bm2 := by
  rw [refOut_eq]
  unfold kOut
  rw [H_eq, mean_row, var_row, row_cast, row_cast, row_cast, row_cast, row_cast]

end Cert.Bridge

end
-- ==== Proof.lean ====
/-
  A graph layer on 100000 nodes with 128 features and 600000 edges: every node's row is added to the sum of the rows of its
  in-neighbours, sent through an affine map, normalised column by column with the mean and variance over all nodes
  (ε the float nearest 10⁻⁵), rectified, and sent through three more affine maps (the last to 64 columns) with a rectifier
  between them. The kernel computes the two dense parts in two grids of twenty blocks of 5000 rows and the neighbour sums and
  the column statistics on the host; the reference computes everything on the host.

  At the extended reals both results are ONE function of the twelve arguments. The neighbour sums, the column sums and the
  sums of squared deviations are the same host operations in both programs. Every other stage computes row r of its result
  from row r of its argument, so the block-by-block computation is the whole-matrix computation (Spec, KReg0, KReg1); a
  product into a zero accumulator and the host's product are the same sum of products (LibPlainDot); a change of float
  format is the identity; the two reciprocal square roots are one function; features + sums = sums + features because
  addition of extended reals commutes. No law that fails at an infinity is used, so finiteness of the inputs is not needed
  for the equation. The three programs' runs: the kernel's two (word-level and idealized) terminate with the arguments
  unchanged by the launch theorems over their generated frames; the reference's by the run of its list of host operations
  (RefRun, RefTerm). Nothing was rewritten between the kernel and its idealization, so that conjunct is trivial.
-/
import proofs.«153193_j45681272160997_1_alg».proof.Defs
import proofs.«153193_j45681272160997_1_alg».proof.Proof.Gen.Kernel
import proofs.«153193_j45681272160997_1_alg».proof.Proof.Gen.Kernel.Frame
import proofs.«153193_j45681272160997_1_alg».proof.Proof.Gen.KernelIdeal
import proofs.«153193_j45681272160997_1_alg».proof.Proof.Gen.KernelIdeal.Frame
import proofs.«153193_j45681272160997_1_alg».proof.Proof.Gen.ReferenceIdeal
import proofs.«153193_j45681272160997_1_alg».proof.Proof.Gen.Pre_finite_inputs
import proofs.«153193_j45681272160997_1_alg».proof.Proof.KValue
import proofs.«153193_j45681272160997_1_alg».proof.Proof.RefTerm
import proofs.«153193_j45681272160997_1_alg».proof.Proof.Bridge
import Idealize.ShloMosaic.Adequacy
import Idealize.ShloMosaic.Init

noncomputable section

namespace Cert.Proof

open Idealize.ShloMosaic Idealize.SL.Sem

/-- The word-level kernel terminates, faults nowhere and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both idealized programs end with the same result array. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10, e11⟩ := hagree c
  rw [e0, e1, e2, e3, e4, e5, e6, e7, e8, e9, e10, e11]
  exact (Cert.Bridge.kOut_eq_refOut _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
